-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x512 .f32) (main_arg1 : FVec F S1024x512 .f32) (main_arg2 : FVec F S512x512 .f32) (main_arg3 : FVec F S512 .f32) (main_arg4 : FVec F S512x1 .f32) (main_arg5 : FVec F S1 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S256x512 : Shape := ⟨2, ![256, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S256x1024 : Shape := ⟨2, ![256, 1024]⟩
abbrev S32x512 : Shape := ⟨2, ![32, 512]⟩
abbrev S128x512 : Shape := ⟨2, ![128, 512]⟩
abbrev S32x128 : Shape := ⟨2, ![32, 128]⟩
abbrev S32x1x512 : Shape := ⟨3, ![32, 1, 512]⟩
abbrev S1x128x512 : Shape := ⟨3, ![1, 128, 512]⟩
abbrev S32x128x512 : Shape := ⟨3, ![32, 128, 512]⟩
abbrev S4096x512 : Shape := ⟨2, ![4096, 512]⟩
abbrev S4096 : Shape := ⟨1, ![4096]⟩

abbrev nBuf : Space → Nat
  | .hbm => 11
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S1x1, .f32⟩
  | .hbm, ⟨10, _⟩ => ⟨S256x1024, .f32⟩
  | .local _ .vmem, ⟨0, _⟩ => ⟨S32x512, .f32⟩
  | .local _ .vmem, ⟨1, _⟩ => ⟨S32x512, .f32⟩
  | .local _ .vmem, ⟨2, _⟩ => ⟨S128x512, .f32⟩
  | .local _ .vmem, ⟨3, _⟩ => ⟨S128x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S32x128, .f32⟩
  | .local _ .vmem, ⟨9, _⟩ => ⟨S32x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S512x1_S1x512 : S512x1.ShapeCasts S1x512
  shapeCasts_S512_S1x512 : S512.ShapeCasts S1x512
  shapeCasts_S1_S1x1 : S1.ShapeCasts S1x1
  inb_S32x512_S32x512_0_0 : ∀ a, (![0, 0] : Fin 2 → Nat) a + S32x512.size a ≤ S32x512.size a
  h_S32x512 : 0 < S32x512.numel
  inb_S128x512_S128x512_0_0 : ∀ a, (![0, 0] : Fin 2 → Nat) a + S128x512.size a ≤ S128x512.size a
  h_S128x512 : 0 < S128x512.numel
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S32x128x512_S4096x512 : S32x128x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  reduces_S4096x512_S4096 : S4096x512.Reduces [1] S4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S4096_S32x128 : S4096.ShapeCasts S32x128
  inb_S32x128_S32x128_0_0 : ∀ a, (![0, 0] : Fin 2 → Nat) a + S32x128.size a ≤ S32x128.size a
  h_S32x128 : 0 < S32x128.numel
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S256x1024.size a
  hwx0_6 : ∀ i : grid0.Coords, EltTy.bits .f32 = 32 ∨ (Rect.block (s := S256x1024) S32x128.size (cc0_transform_6 i) (hinb0_6 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S32x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512 : Shape := ⟨2, ![256, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S256x1x512 : Shape := ⟨3, ![256, 1, 512]⟩
abbrev S1x1024x512 : Shape := ⟨3, ![1, 1024, 512]⟩
abbrev S256x1024x512 : Shape := ⟨3, ![256, 1024, 512]⟩
abbrev S1x1x512 : Shape := ⟨3, ![1, 1, 512]⟩
abbrev S_ : Shape := ⟨0, ![]⟩
abbrev S256x1024x1 : Shape := ⟨3, ![256, 1024, 1]⟩
abbrev S256x1024 : Shape := ⟨2, ![256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S256x1x512, .f32⟩
  | .hbm, ⟨7, _⟩ => ⟨S1x1024x512, .f32⟩
  | .hbm, ⟨8, _⟩ => ⟨S256x1024x512, .f32⟩
  | .hbm, ⟨9, _⟩ => ⟨S256x1024x512, .f32⟩
  | .hbm, ⟨10, _⟩ => ⟨S256x1024x512, .f32⟩
  | .hbm, ⟨11, _⟩ => ⟨S256x1024x512, .f32⟩
  | .hbm, ⟨12, _⟩ => ⟨S256x1024x512, .f32⟩
  | .hbm, ⟨13, _⟩ => ⟨S1x1x512, .f32⟩
  | .hbm, ⟨14, _⟩ => ⟨S256x1024x512, .f32⟩
  | .hbm, ⟨15, _⟩ => ⟨S256x1024x512, .f32⟩
  | .hbm, ⟨16, _⟩ => ⟨S_, .f32⟩
  | .hbm, ⟨17, _⟩ => ⟨S256x1024x512, .f32⟩
  | .hbm, ⟨18, _⟩ => ⟨S256x1024x512, .f32⟩
  | .hbm, ⟨19, _⟩ => ⟨S256x1024x1, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S256x512_S256x1x512_0_2 : S256x512.BroadcastsInDim S256x1x512 (![0, 2] : Fin 2 → Fin S256x1x512.rank)
  bcast_S1024x512_S1x1024x512_1_2 : S1024x512.BroadcastsInDim S1x1024x512 (![1, 2] : Fin 2 → Fin S1x1024x512.rank)
  bcast_S256x1x512_S256x1024x512_0_1_2 : S256x1x512.BroadcastsInDim S256x1024x512 (![0, 1, 2] : Fin 3 → Fin S256x1024x512.rank)
  bcast_S1x1024x512_S256x1024x512_0_1_2 : S1x1024x512.BroadcastsInDim S256x1024x512 (![0, 1, 2] : Fin 3 → Fin S256x1024x512.rank)
  bcast_S512_S1x1x512_2 : S512.BroadcastsInDim S1x1x512 (![2] : Fin 1 → Fin S1x1x512.rank)
  bcast_S1x1x512_S256x1024x512_0_1_2 : S1x1x512.BroadcastsInDim S256x1024x512 (![0, 1, 2] : Fin 3 → Fin S256x1024x512.rank)
  bcast_S_S256x1024x512 : S_.BroadcastsInDim S256x1024x512 (![] : Fin 0 → Fin S256x1024x512.rank)
  shapeCasts_S256x1024x1_S256x1024 : S256x1024x1.ShapeCasts S256x1024
  shapeCasts_S1_S_ : S1.ShapeCasts S_
  bcast_S_S256x1024 : S_.BroadcastsInDim S256x1024 (![] : Fin 0 → Fin S256x1024.rank)
  dot_S256x1024x512_S512x512_S256x1024x512_2_0_01_1_n_n_wf : DotDims.WF S256x1024x512 S512x512 S256x1024x512 [2] [0] [0, 1] [1] [] []
  dot_S256x1024x512_S512x1_S256x1024x1_2_0_01_1_n_n_wf : DotDims.WF S256x1024x512 S512x1 S256x1024x1 [2] [0] [0, 1] [1] [] []

variable [Facts₀]

def dot_S256x1024x512_S512x512_S256x1024x512_2_0_01_1_n_n : DotDims S256x1024x512 S512x512 S256x1024x512 where
  lhsContracting := [2]
  rhsContracting := [0]
  lhsNonContracting := [0, 1]
  rhsNonContracting := [1]
  lhsBatch := []
  rhsBatch := []
  wf := dot_S256x1024x512_S512x512_S256x1024x512_2_0_01_1_n_n_wf
def dot_S256x1024x512_S512x1_S256x1024x1_2_0_01_1_n_n : DotDims S256x1024x512 S512x1 S256x1024x1 where
  lhsContracting := [2]
  rhsContracting := [0]
  lhsNonContracting := [0, 1]
  rhsNonContracting := [1]
  lhsBatch := []
  rhsBatch := []
  wf := dot_S256x1024x512_S512x1_S256x1024x1_2_0_01_1_n_n_wf

class Facts : Prop extends Facts₀ where

variable [Facts]
-- ==== Proof.Layout.lean ====
/-
  How the block's index arithmetic reads: the kernel flattens the 32 × 128 pairs of a block into 4096 rows and
  back, and stretches a 32-row and a 128-row block over the pairs. Each lemma reads one of these re-layings at an
  index written by its coordinates; pair `(p, q)` of a block is row `p · 128 + q` of the flattened form.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PairScore.Layout

open Idealize.ShloMosaic Idealize.ShloMosaic.ValueIdx

variable {α : Type}

/-- The flattened row of pair `(p, q)` of a block. -/
def pairRow (p : Fin 32) (q : Fin 128) : Fin 4096 := ⟨p.val * 128 + q.val, by have := p.isLt; have := q.isLt; omega⟩

/-- A 4096-vector folded to `[32, 128]` reads at `(p, q)` its entry at the pair's row. -/
theorem fold_rows (v : (⟨1, ![4096]⟩ : Shape).Idx → α) (h : (⟨1, ![4096]⟩ : Shape).ShapeCasts ⟨2, ![32, 128]⟩)
    (p : Fin 32) (q : Fin 128) : shapeCast ⟨2, ![32, 128]⟩ v h (ix2 p q) = v (ix1 (pairRow p q)) :=
  shapeCast_apply v h _ _ (by rw [Shape.rowMajor_val_one, Shape.rowMajor_val_two]; rfl)

/-- A `[32, 128, 512]` array flattened to `[4096, 512]` reads at (the pair's row, `d`) its entry at `(p, q, d)`. -/
theorem flatten_pairs (v : (⟨3, ![32, 128, 512]⟩ : Shape).Idx → α)
    (h : (⟨3, ![32, 128, 512]⟩ : Shape).ShapeCasts ⟨2, ![4096, 512]⟩) (p : Fin 32) (q : Fin 128) (d : Fin 512) :
    shapeCast ⟨2, ![4096, 512]⟩ v h (ix2 (pairRow p q) d) = v (ix3 p q d) :=
  shapeCast_apply v h _ _ (by rw [Shape.rowMajor_val_three, Shape.rowMajor_val_two]; rfl)

/-- The query block, given a unit middle axis and stretched over the 128 support rows, reads at `(p, q, d)` its
    entry at `(p, d)`. -/
theorem stretch_query (x : (⟨2, ![32, 512]⟩ : Shape).Idx → α) (h₁ : (⟨2, ![32, 512]⟩ : Shape).ShapeCasts ⟨3, ![32, 1, 512]⟩)
    (h₂ : (⟨3, ![32, 1, 512]⟩ : Shape).Broadcasts ⟨3, ![32, 128, 512]⟩) (p : Fin 32) (q : Fin 128) (d : Fin 512) :
    broadcastTo ⟨3, ![32, 128, 512]⟩ (shapeCast ⟨3, ![32, 1, 512]⟩ x h₁) h₂ (ix3 p q d) = x (ix2 p d) := by
  refine (broadcastTo_apply _ h₂ (ix3 p q d) (ix3 p (0 : Fin 1) d) fun a => ?_).trans
    (shapeCast_apply x h₁ _ _ (by rw [Shape.rowMajor_val_two, Shape.rowMajor_val_three]; show p.val * 512 + d.val = (p.val * 1 + 0) * 512 + d.val; omega))
  match a with
  | ⟨0, _⟩ => show p.val = if (32 : Nat) = 1 then 0 else p.val; rw [if_neg (by decide)]
  | ⟨1, _⟩ => show 0 = if (1 : Nat) = 1 then 0 else q.val; rw [if_pos rfl]
  | ⟨2, _⟩ => show d.val = if (512 : Nat) = 1 then 0 else d.val; rw [if_neg (by decide)]

/-- The support block, given a unit leading axis and stretched over the 32 query rows, reads at `(p, q, d)` its
    entry at `(q, d)`. -/
theorem stretch_support (x : (⟨2, ![128, 512]⟩ : Shape).Idx → α) (h₁ : (⟨2, ![128, 512]⟩ : Shape).ShapeCasts ⟨3, ![1, 128, 512]⟩)
    (h₂ : (⟨3, ![1, 128, 512]⟩ : Shape).Broadcasts ⟨3, ![32, 128, 512]⟩) (p : Fin 32) (q : Fin 128) (d : Fin 512) :
    broadcastTo ⟨3, ![32, 128, 512]⟩ (shapeCast ⟨3, ![1, 128, 512]⟩ x h₁) h₂ (ix3 p q d) = x (ix2 q d) := by
  refine (broadcastTo_apply _ h₂ (ix3 p q d) (ix3 (0 : Fin 1) q d) fun a => ?_).trans (shapeCast_ab_1ab_apply x h₁ 0 q d)
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show d.val = if (512 : Nat) = 1 then 0 else d.val; rw [if_neg (by decide)]

/-- A one-row block stretched over the 4096 flattened rows reads at `(r, k)` the row's entry `k`. -/
theorem stretch_row (x : (⟨2, ![1, 512]⟩ : Shape).Idx → α) (h₁ : (⟨2, ![1, 512]⟩ : Shape).ShapeCasts ⟨2, ![1, 512]⟩)
    (h₂ : (⟨2, ![1, 512]⟩ : Shape).Broadcasts ⟨2, ![4096, 512]⟩) (r : Fin 4096) (k : Fin 512) :
    broadcastTo ⟨2, ![4096, 512]⟩ (shapeCast ⟨2, ![1, 512]⟩ x h₁) h₂ (ix2 r k) = x (ix2 (0 : Fin 1) k) := by
  rw [shapeCast_self]
  exact broadcastTo_1b_ab_apply x h₂ r k

/-- The one entry of a `[1, 1]` block, extracted at its static position. -/
theorem extract_only (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-- A lane sum of a `[4096, 512]` vector, read at row `r` on the extended reals, is the sum of the row. -/
theorem row_sum (v : FVec Ideal ⟨2, ![4096, 512]⟩ .f32) (h : (⟨2, ![4096, 512]⟩ : Shape).Reduces [1] ⟨1, ![4096]⟩)
    (hφ : FKind.Formats .f32) (hacc : (0x00000000#32 : BitVec 32) = FKind.add.neutral .f32 hφ) (r : Fin 4096) :
    multiReduction .add [1] ⟨1, ![4096]⟩ v 0x00000000#32 h hφ hacc (ix1 r) = ∑ k : Fin 512, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

end Cert.PairScore.Layout

end
-- ==== Proof.Body.lean ====
/-
  What the kernel body stores, read at one entry of the output block.

  The body loads a block of 32 query rows, a block of 128 support rows, the whole of `W₁` and the three small
  rows, forms the 4096 × 512 matrix of coordinatewise distances of the block's pairs, multiplies it by `W₁`,
  adds `b₁`, rectifies, takes the inner product of each row with `W₂`'s row, adds `b₂`, applies the logistic
  function and folds the 4096 results back to 32 × 128. Entry `(p, q)` of the stored block is therefore the
  pair score of query row `p` and support row `q` of the loaded blocks.
-/
import proofs.«161711_j61718680043758_1_alg».proof.Proof.Gen.KernelIdeal.Skeleton
import proofs.«161711_j61718680043758_1_alg».proof.Proof.Layout

noncomputable section

open scoped BigOperators

namespace Cert.PairScore.Body

open Cert.KernelIdeal Cert.KernelIdeal.Gen Idealize.ShloMosaic Idealize.ShloMosaic.ValueIdx Cert.PairScore.Layout

/-- The product's row coordinate is the output's. -/
theorem lhs_row (i : S4096x512.Idx) (k : dot_S4096x512_S512x512_S4096x512_1_0_0_1_n_n.contr.Idx) : (dot_S4096x512_S512x512_S4096x512_1_0_0_1_n_n.lhsIdx i k 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
/-- The left operand's column is the contraction coordinate. -/
theorem lhs_col (i : S4096x512.Idx) (k : dot_S4096x512_S512x512_S4096x512_1_0_0_1_n_n.contr.Idx) : (dot_S4096x512_S512x512_S4096x512_1_0_0_1_n_n.lhsIdx i k 1).val = (k ⟨0, by decide⟩).val :=
  dot_S4096x512_S512x512_S4096x512_1_0_0_1_n_n.lhsIdx_val_of_single rfl i k
/-- The right operand's row is the contraction coordinate. -/
theorem rhs_row (i : S4096x512.Idx) (k : dot_S4096x512_S512x512_S4096x512_1_0_0_1_n_n.contr.Idx) : (dot_S4096x512_S512x512_S4096x512_1_0_0_1_n_n.rhsIdx i k 0).val = (k ⟨0, by decide⟩).val :=
  dot_S4096x512_S512x512_S4096x512_1_0_0_1_n_n.rhsIdx_val_of_single rfl i k
/-- The right operand's column is the output's. -/
theorem rhs_col (i : S4096x512.Idx) (k : dot_S4096x512_S512x512_S4096x512_1_0_0_1_n_n.contr.Idx) : (dot_S4096x512_S512x512_S4096x512_1_0_0_1_n_n.rhsIdx i k 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The left operand of the product at output `(r, h)` and contraction coordinate `d` is `(r, d)`. -/
theorem lhs_idx (r : Fin 4096) (h d : Fin 512) :
    dot_S4096x512_S512x512_S4096x512_1_0_0_1_n_n.lhsIdx (ix2 r h) ((contrEquiv1 dot_S4096x512_S512x512_S4096x512_1_0_0_1_n_n 512 rfl rfl).symm d) = ix2 r d := by
  have hd := contrEquiv1_symm_val dot_S4096x512_S512x512_S4096x512_1_0_0_1_n_n 512 rfl rfl d
  funext a; apply Fin.ext
  match a with
  | ⟨0, _⟩ => exact lhs_row _ _
  | ⟨1, _⟩ => exact (lhs_col _ _).trans hd

/-- The right operand there is `(d, h)`. -/
theorem rhs_idx (r : Fin 4096) (h d : Fin 512) :
    dot_S4096x512_S512x512_S4096x512_1_0_0_1_n_n.rhsIdx (ix2 r h) ((contrEquiv1 dot_S4096x512_S512x512_S4096x512_1_0_0_1_n_n 512 rfl rfl).symm d) = ix2 d h := by
  have hd := contrEquiv1_symm_val dot_S4096x512_S512x512_S4096x512_1_0_0_1_n_n 512 rfl rfl d
  funext a; apply Fin.ext
  match a with
  | ⟨0, _⟩ => exact (rhs_row _ _).trans hd
  | ⟨1, _⟩ => exact rhs_col _ _

/-- The matrix product into a zero accumulator, read at `(r, h)`: the sum over the 512 coordinates. -/
theorem product_at (l : FVec Ideal S4096x512 .bf16) (w : FVec Ideal S512x512 .bf16) (r : Fin 4096) (h : Fin 512) :
    matmul dot_S4096x512_S512x512_S4096x512_1_0_0_1_n_n none l w (constant S4096x512 .f32 0x00000000#32) (ix2 r h) = ∑ d : Fin 512, l (ix2 r d) * w (ix2 d h) := by
  refine (Ideal.matmul_constant_zero_apply dot_S4096x512_S512x512_S4096x512_1_0_0_1_n_n none l w (ix2 r h)).trans ?_
  rw [← Equiv.sum_comp (contrEquiv1 dot_S4096x512_S512x512_S4096x512_1_0_0_1_n_n 512 rfl rfl).symm]
  exact Finset.sum_congr rfl fun d _ => by rw [lhs_idx, rhs_idx]

/-- The distance matrix of the block's pairs at (the pair's row, `d`): `|a p d − s q d|`. -/
theorem distance_at (x0 : Vec Ideal S32x512 .f32) (x1 : Vec Ideal S128x512 .f32) (p : Fin 32) (q : Fin 128) (d : Fin 512) :
    (shapeCast S4096x512 (absf (F := Ideal) (φ := .f32) (subf (broadcastTo S32x128x512 (shapeCast S32x1x512 x0 shapeCasts_S32x512_S32x1x512) broadcasts_S32x1x512_S32x128x512)
      (broadcastTo S32x128x512 (shapeCast S1x128x512 x1 shapeCasts_S128x512_S1x128x512) broadcasts_S1x128x512_S32x128x512)))
      shapeCasts_S32x128x512_S4096x512 : FVec Ideal S4096x512 .f32) (ix2 (pairRow p q) d)
      = max (x0 (ix2 p d) - x1 (ix2 q d)) (-(x0 (ix2 p d) - x1 (ix2 q d))) := by
  refine (flatten_pairs _ _ p q d).trans ?_
  show max (_ - _) (-(_ - _)) = _
  rw [stretch_query, stretch_support]

/-- A hidden unit of a flattened row: the rectified product row plus the bias row. -/
theorem hidden_at (l : FVec Ideal S4096x512 .bf16) (w : FVec Ideal S512x512 .bf16) (x3 : Vec Ideal S1x512 .f32) (r : Fin 4096) (h : Fin 512) :
    maximumf (addf (matmul dot_S4096x512_S512x512_S4096x512_1_0_0_1_n_n none l w (constant S4096x512 .f32 0x00000000#32))
        (broadcastTo S4096x512 (shapeCast S1x512 x3 shapeCasts_S1x512_S1x512) broadcasts_S1x512_S4096x512))
      (broadcast S4096x512 (Scalar.ofBits (F := Ideal) .f32 0x00000000#32)) (ix2 r h)
      = max ((∑ d : Fin 512, l (ix2 r d) * w (ix2 d h)) + x3 (ix2 (0 : Fin 1) h)) 0 := by
  show max (_ + _) (Ideal.ofBits .f32 0x00000000#32) = _
  rw [product_at, stretch_row, Ideal.ofBits_zero_f32]

/-- The logit of a flattened row: its hidden units against the output row, plus the output bias. -/
theorem logit_at (hid : FVec Ideal S4096x512 .f32) (x4 : Vec Ideal S1x512 .f32) (x5 : Vec Ideal S1x1 .f32) (r : Fin 4096) :
    addf (multiReduction .add [1] S4096 (mulf hid (broadcastTo S4096x512 (shapeCast S1x512 x4 shapeCasts_S1x512_S1x512) broadcasts_S1x512_S4096x512))
        0x00000000#32 reduces_S4096x512_S4096 (.inl rfl) rfl)
      (broadcast S4096 (extractAt ![0, 0] x5 inpos_S1x1_p0_0)) (ix1 r)
      = (∑ h : Fin 512, hid (ix2 r h) * x4 (ix2 (0 : Fin 1) h)) + x5 (ix2 (0 : Fin 1) (0 : Fin 1)) := by
  show _ + extractAt ![0, 0] x5 inpos_S1x1_p0_0 = _
  rw [extract_only]
  refine congrArg (· + x5 (ix2 (0 : Fin 1) (0 : Fin 1))) ((row_sum _ _ _ _ r).trans (Finset.sum_congr rfl fun h _ => ?_))
  show hid (ix2 r h) * _ = _
  rw [stretch_row]

/-- THE STORED BLOCK at `(p, q)`: the logistic function of the pair's logit, over the loaded blocks. -/
theorem stored_at (x0 : Vec Ideal S32x512 .f32) (x1 : Vec Ideal S128x512 .f32) (x2 : Vec Ideal S512x512 .bf16)
    (x3 x4 : Vec Ideal S1x512 .f32) (x5 : Vec Ideal S1x1 .f32) (p : Fin 32) (q : Fin 128) :
    k0_pay1 (F := Ideal) x0 x1 x2 x3 x4 x5 (ix2 p q)
      = Ideal.logistic ((∑ h : Fin 512,
          max ((∑ d : Fin 512, max (x0 (ix2 p d) - x1 (ix2 q d)) (-(x0 (ix2 p d) - x1 (ix2 q d))) * x2 (ix2 d h)) + x3 (ix2 (0 : Fin 1) h)) 0
            * x4 (ix2 (0 : Fin 1) h)) + x5 (ix2 (0 : Fin 1) (0 : Fin 1))) := by
  unfold k0_pay1
  refine (fold_rows _ _ p q).trans ?_
  show Ideal.logistic _ = _
  refine congrArg Ideal.logistic ((logit_at _ x4 x5 (pairRow p q)).trans ?_)
  refine congrArg (· + x5 (ix2 (0 : Fin 1) (0 : Fin 1))) (Finset.sum_congr rfl fun h _ => congrArg (· * x4 (ix2 (0 : Fin 1) h)) ?_)
  refine (hidden_at _ _ x3 (pairRow p q) h).trans ?_
  refine congrArg (fun z => max (z + x3 (ix2 (0 : Fin 1) h)) 0) (Finset.sum_congr rfl fun d _ => ?_)
  show _ * shapeCast S512x512 x2 shapeCasts_S512x512_S512x512 (ix2 d h) = _
  rw [shapeCast_self]
  exact congrArg (· * x2 (ix2 d h)) (distance_at x0 x1 p q d)

end Cert.PairScore.Body

end
-- ==== Proof.Spec.lean ====
/-
  The function both programs compute, stated once over the argument arrays.

  For a query row `n` (of 256) and a support row `m` (of 1024) the pair's feature vector is the elementwise
  distance `|a n d − s m d|` over the 512 embedding coordinates `d`. A one-hidden-layer head scores it:
  hidden unit `h` is `max (∑ d, |a n d − s m d| · W₁ d h + b₁ h) 0`, the logit is `∑ h, hidden h · W₂ h 0 + b₂ 0`, and the
  result at `(n, m)` is the logistic function of the logit. Everything is read on the extended reals, where a
  change of float format is the identity and the absolute value of `x` is `max x (−x)`.
-/
import Idealize.ShloMosaic.PureOps.Ideal
import Idealize.ShloMosaic.PureOps.Ideal.Laws
import Idealize.ShloMosaic.Lib.ValueIdx

noncomputable section

open scoped BigOperators

namespace Cert.PairScore

open Idealize.ShloMosaic Idealize.ShloMosaic.ValueIdx

/-- Hidden unit `h` of the pair (query row `n`, support row `m`): the rectified affine image of the pair's
    coordinatewise distances. -/
def hidden (a : (⟨2, ![256, 512]⟩ : Shape).Idx → EReal) (s : (⟨2, ![1024, 512]⟩ : Shape).Idx → EReal)
    (W₁ : (⟨2, ![512, 512]⟩ : Shape).Idx → EReal) (b₁ : (⟨1, ![512]⟩ : Shape).Idx → EReal)
    (n : Fin 256) (m : Fin 1024) (h : Fin 512) : EReal :=
  max ((∑ d : Fin 512, max (a (ix2 n d) - s (ix2 m d)) (-(a (ix2 n d) - s (ix2 m d))) * W₁ (ix2 d h)) + b₁ (ix1 h)) 0

/-- The pair's logit: the hidden units against the output column, plus the output bias. -/
def logit (a : (⟨2, ![256, 512]⟩ : Shape).Idx → EReal) (s : (⟨2, ![1024, 512]⟩ : Shape).Idx → EReal)
    (W₁ : (⟨2, ![512, 512]⟩ : Shape).Idx → EReal) (b₁ : (⟨1, ![512]⟩ : Shape).Idx → EReal)
    (W₂ : (⟨2, ![512, 1]⟩ : Shape).Idx → EReal) (b₂ : (⟨1, ![1]⟩ : Shape).Idx → EReal)
    (n : Fin 256) (m : Fin 1024) : EReal :=
  (∑ h : Fin 512, hidden a s W₁ b₁ n m h * W₂ (ix2 h 0)) + b₂ (ix1 0)

/-- The similarity matrix: entry `(n, m)` is the logistic function of the pair's logit. -/
def score (a : (⟨2, ![256, 512]⟩ : Shape).Idx → EReal) (s : (⟨2, ![1024, 512]⟩ : Shape).Idx → EReal)
    (W₁ : (⟨2, ![512, 512]⟩ : Shape).Idx → EReal) (b₁ : (⟨1, ![512]⟩ : Shape).Idx → EReal)
    (W₂ : (⟨2, ![512, 1]⟩ : Shape).Idx → EReal) (b₂ : (⟨1, ![1]⟩ : Shape).Idx → EReal) :
    (⟨2, ![256, 1024]⟩ : Shape).Idx → EReal :=
  fun i => Ideal.logistic (logit a s W₁ b₁ W₂ b₂ (i 0) (i 1))

/-- The word `0x3F800000` denotes the real number one. -/
theorem ofBits_one_f32 : Ideal.ofBits .f32 0x3F800000#32 = 1 := IdealRules.sign_bit.ideal_onePat .f32

/-- The logistic function is the quotient the reference spells out: `1 / (1 + e^(−x))`, with the same division and
    the same exponential on every extended real. -/
theorem logistic_eq_quotient (x : EReal) :
    Ideal.div (Ideal.ofBits .f32 0x3F800000#32) (Ideal.ofBits .f32 0x3F800000#32 + Ideal.exp (-x)) = Ideal.logistic x := by
  rw [ofBits_one_f32]; rfl

end Cert.PairScore

end
-- ==== Proof.Point.lean ====
/-
  One grid point's block is a block of the pair score.

  At the grid point with block indices `(bi, bj)` the body is handed query rows `bi · 32 … bi · 32 + 31`, support rows
  `bj · 128 … bj · 128 + 127`, and the whole of `W₁`, `b₁`, `W₂`, `b₂` (each re-laid as the host left it). Entry `(p, q)`
  of what it stores is then the pair score at `(bi · 32 + p, bj · 128 + q)`: the stored entry and the score are the
  same expression once each loaded entry is replaced by the array entry it is.
-/
import proofs.«161711_j61718680043758_1_alg».proof.Proof.Body
import proofs.«161711_j61718680043758_1_alg».proof.Proof.Spec

noncomputable section

open scoped BigOperators

namespace Cert.PairScore.Point

open Cert.KernelIdeal Cert.KernelIdeal.Gen Idealize.ShloMosaic Idealize.ShloMosaic.ValueIdx

/-- Query row `p` of block `bi`. -/
def queryRow (bi : Fin 8) (p : Fin 32) : Fin 256 := ⟨bi.val * 32 + p.val, by have := bi.isLt; have := p.isLt; omega⟩
/-- Support row `q` of block `bj`. -/
def supportRow (bj : Fin 8) (q : Fin 128) : Fin 1024 := ⟨bj.val * 128 + q.val, by have := bj.isLt; have := q.isLt; omega⟩

/-- THE STORED ENTRY IS THE SCORE, given what each loaded block holds. -/
theorem stored_is_score (a : (⟨2, ![256, 512]⟩ : Shape).Idx → EReal) (s : (⟨2, ![1024, 512]⟩ : Shape).Idx → EReal)
    (W₁ : (⟨2, ![512, 512]⟩ : Shape).Idx → EReal) (b₁ : (⟨1, ![512]⟩ : Shape).Idx → EReal)
    (W₂ : (⟨2, ![512, 1]⟩ : Shape).Idx → EReal) (b₂ : (⟨1, ![1]⟩ : Shape).Idx → EReal)
    (x0 : Vec Ideal S32x512 .f32) (x1 : Vec Ideal S128x512 .f32) (x2 : Vec Ideal S512x512 .bf16)
    (x3 x4 : Vec Ideal S1x512 .f32) (x5 : Vec Ideal S1x1 .f32) (bi bj : Fin 8)
    (h0 : ∀ (p : Fin 32) (d : Fin 512), x0 (ix2 p d) = a (ix2 (queryRow bi p) d))
    (h1 : ∀ (q : Fin 128) (d : Fin 512), x1 (ix2 q d) = s (ix2 (supportRow bj q) d))
    (h2 : ∀ (d h : Fin 512), x2 (ix2 d h) = W₁ (ix2 d h))
    (h3 : ∀ h : Fin 512, x3 (ix2 (0 : Fin 1) h) = b₁ (ix1 h))
    (h4 : ∀ h : Fin 512, x4 (ix2 (0 : Fin 1) h) = W₂ (ix2 h (0 : Fin 1)))
    (h5 : x5 (ix2 (0 : Fin 1) (0 : Fin 1)) = b₂ (ix1 (0 : Fin 1)))
    (p : Fin 32) (q : Fin 128) :
    k0_pay1 (F := Ideal) x0 x1 x2 x3 x4 x5 (ix2 p q) = score a s W₁ b₁ W₂ b₂ (ix2 (queryRow bi p) (supportRow bj q)) := by
  rw [Body.stored_at]
  show _ = Ideal.logistic (logit a s W₁ b₁ W₂ b₂ (queryRow bi p) (supportRow bj q))
  unfold logit hidden
  simp only [h0, h1, h2, h3, h4, h5]

end Cert.PairScore.Point

end
-- ==== Proof.Entry.lean ====
/-
  What the staged arrays hold when the region is entered.

  Before the launch the host narrows `W₁` to bf16 and gives the three small arguments a leading unit axis:
  `b₁ : [512]` and `W₂ : [512, 1]` become rows `[1, 512]`, and `b₂ : [1]` becomes `[1, 1]`. The region therefore
  finds each of those four arrays at that re-laying of the argument as launched. Read at an index on the extended
  reals (where narrowing changes nothing): `W₁` at `(d, h)`, `b₁` at `h`, `W₂` at `(h, 0)`, `b₂` at `0`.
-/
import proofs.«161711_j61718680043758_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.PairScore.Entry

open Cert.KernelIdeal Cert.KernelIdeal.Gen Idealize.ShloMosaic Idealize.ShloMosaic.TcCoe Idealize.SL.Sem
open Idealize.ShloMosaic.ValueIdx Idealize.ShloMosaic.StableHlo

section AnyValues
variable {F : FTy → Type} [FloatOps F]
variable (m : (ℓ : Loc nD τ sig) → Buf (Elt F) ℓ)

/-- The matrix the third window stages is `W₁` narrowed. -/
theorem narrowed_w1 (c : Dev nD) :
    (V m c main_v0 : (⟨S512x512, .bf16⟩ : BufTy).Contents (Elt F))
      = truncf .bf16 (m ((c : Thread nD τ).loc main_arg2) : (⟨S512x512, .f32⟩ : BufTy).Contents (Elt F)) bitsLt_bf16_f32 := by
  unfold V; after_results <;> rfl

/-- The row the fourth window stages is `b₁` with a leading unit axis. -/
theorem row_b1 (c : Dev nD) :
    (V m c main_v2 : (⟨S1x512, .f32⟩ : BufTy).Contents (Elt F))
      = shapeCast S1x512 (m ((c : Thread nD τ).loc main_arg3) : (⟨S512, .f32⟩ : BufTy).Contents (Elt F)) shapeCasts_S512_S1x512 := by
  unfold V; after_results <;> rfl

/-- The row the fifth window stages is the column `W₂` laid as a row. -/
theorem row_w2 (c : Dev nD) :
    (V m c main_v1 : (⟨S1x512, .f32⟩ : BufTy).Contents (Elt F))
      = shapeCast S1x512 (m ((c : Thread nD τ).loc main_arg4) : (⟨S512x1, .f32⟩ : BufTy).Contents (Elt F)) shapeCasts_S512x1_S1x512 := by
  unfold V; after_results <;> rfl

/-- The cell the sixth window stages is `b₂` with a leading unit axis. -/
theorem cell_b2 (c : Dev nD) :
    (V m c main_v3 : (⟨S1x1, .f32⟩ : BufTy).Contents (Elt F))
      = shapeCast S1x1 (m ((c : Thread nD τ).loc main_arg5) : (⟨S1, .f32⟩ : BufTy).Contents (Elt F)) shapeCasts_S1_S1x1 := by
  unfold V; after_results <;> rfl

end AnyValues

/-- A `[512, 1]` column laid as a `[1, 512]` row reads at `(0, h)` the column's entry `(h, 0)`. -/
theorem column_as_row {α : Type} (x : (⟨2, ![512, 1]⟩ : Shape).Idx → α) (hc : (⟨2, ![512, 1]⟩ : Shape).ShapeCasts ⟨2, ![1, 512]⟩) (h : Fin 512) :
    shapeCast ⟨2, ![1, 512]⟩ x hc (ix2 (0 : Fin 1) h) = x (ix2 h (0 : Fin 1)) :=
  shapeCast_apply x hc _ _ (by
    rw [Shape.rowMajor_val_two, Shape.rowMajor_val_two]
    show h.val * 1 + 0 = 0 * 512 + h.val
    omega)

/-- A `[1]` vector given a leading unit axis reads at `(0, 0)` its one entry. -/
theorem unit_as_cell {α : Type} (x : (⟨1, ![1]⟩ : Shape).Idx → α) (hc : (⟨1, ![1]⟩ : Shape).ShapeCasts ⟨2, ![1, 1]⟩) :
    shapeCast ⟨2, ![1, 1]⟩ x hc (ix2 (0 : Fin 1) (0 : Fin 1)) = x (ix1 (0 : Fin 1)) :=
  shapeCast_a_1a_apply x hc 0 0

end Cert.PairScore.Entry

end
-- ==== Proof.Blocks.lean ====
/-
  From the grid points' blocks to the whole result array.

  The grid is 8 × 8; point `t` with coordinates `(bi, bj)` reads block `bi` of the 32-row query blocks, block `bj` of
  the 128-row support blocks and the whole of the four small arrays, and writes block `(bi, bj)` of the
  `[256, 1024]` result. Each written block is the matching block of the pair score of the launch arguments; the 64
  blocks tile the result, so after the run the result array is the pair score.
-/
import proofs.«161711_j61718680043758_1_alg».proof.Proof.Gen.KernelIdeal.Value
import proofs.«161711_j61718680043758_1_alg».proof.Proof.Point
import proofs.«161711_j61718680043758_1_alg».proof.Proof.Entry

noncomputable section

namespace Cert.PairScore.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairScore.Point

variable (m : (ℓ : Loc nD τ sig) → Buf (Elt Ideal) ℓ) (ρ : Dev nD → PrngReg)

/-- The pair score of the arguments as launched on core `c`. -/
def scoreOf (c : Dev nD) : S256x1024.Idx → EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem zero_offsets : (![0, 0] : Fin 2 → Nat) = fun _ => 0 := funext fun a => by fin_cases a <;> rfl

/-- The index maps over the 64 grid points: the query window follows the output's row block, the support window its
    column block, the four small windows stay at block zero, and the output's block indices are below 8. -/
theorem index_maps : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) < 8 ∧ win0_6.index t (1 : Fin 2) < 8 :=
  (by decide +kernel : ∀ t : Fin grid0.N, _)

/-- Every block of the result is some point's. -/
theorem every_block : ∀ (q0 : Fin 8) (q1 : Fin 8), ∃ t : Fin cfg0.N, win0_6.index t = ![q0.val, q1.val] :=
  (by decide +kernel : ∀ (q0 : Fin 8) (q1 : Fin 8), ∃ t : Fin grid0.N, win0_6.index t = ![q0.val, q1.val])

/-! ## The input blocks, read off any array -/

section Reads
variable (c : Dev nD) (t : Fin cfg0.N)

/-- Entry `(p, d)` of the query window's block is row `bi · 32 + p` of its array. -/
theorem read_query (bi : Fin 8) (e0 : win0_0.index t (0 : Fin 2) = bi.val) (e1 : win0_0.index t (1 : Fin 2) = 0)
    (A : Buf (Elt Ideal) ((c : Thread nD τ).loc (Pipeline.arrRef spec0 0))) (p : Fin 32) (d : Fin 512) :
    ((cfg0.win 0).blk t).view.read (Elt Ideal) A (ix2 p d) = A (ix2 (queryRow bi p) d) := by
  show A (((cfg0.win 0).blk t).view.emb (ix2 p d)) = _
  refine congrArg A (funext fun a => Fin.ext ?_)
  match a with
  | ⟨0, _⟩ => show win0_0.index t (0 : Fin 2) * 32 + 1 * p.val = bi.val * 32 + p.val; omega
  | ⟨1, _⟩ => show win0_0.index t (1 : Fin 2) * 512 + 1 * d.val = d.val; omega

/-- Entry `(q, d)` of the support window's block is row `bj · 128 + q` of its array. -/
theorem read_support (bj : Fin 8) (e0 : win0_1.index t (0 : Fin 2) = bj.val) (e1 : win0_1.index t (1 : Fin 2) = 0)
    (A : Buf (Elt Ideal) ((c : Thread nD τ).loc (Pipeline.arrRef spec0 1))) (q : Fin 128) (d : Fin 512) :
    ((cfg0.win 1).blk t).view.read (Elt Ideal) A (ix2 q d) = A (ix2 (supportRow bj q) d) := by
  show A (((cfg0.win 1).blk t).view.emb (ix2 q d)) = _
  refine congrArg A (funext fun a => Fin.ext ?_)
  match a with
  | ⟨0, _⟩ => show win0_1.index t (0 : Fin 2) * 128 + 1 * q.val = bj.val * 128 + q.val; omega
  | ⟨1, _⟩ => show win0_1.index t (1 : Fin 2) * 512 + 1 * d.val = d.val; omega

/-- The third window's block is its whole array. -/
theorem read_w1 (e0 : win0_2.index t (0 : Fin 2) = 0) (e1 : win0_2.index t (1 : Fin 2) = 0)
    (A : Buf (Elt Ideal) ((c : Thread nD τ).loc (Pipeline.arrRef spec0 2))) (d h : Fin 512) :
    ((cfg0.win 2).blk t).view.read (Elt Ideal) A (ix2 d h) = A (ix2 d h) := by
  show A (((cfg0.win 2).blk t).view.emb (ix2 d h)) = _
  refine congrArg A (funext fun a => Fin.ext ?_)
  match a with
  | ⟨0, _⟩ => show win0_2.index t (0 : Fin 2) * 512 + 1 * d.val = d.val; omega
  | ⟨1, _⟩ => show win0_2.index t (1 : Fin 2) * 512 + 1 * h.val = h.val; omega

/-- The fourth window's block is its whole row. -/
theorem read_b1 (e0 : win0_3.index t (0 : Fin 2) = 0) (e1 : win0_3.index t (1 : Fin 2) = 0)
    (A : Buf (Elt Ideal) ((c : Thread nD τ).loc (Pipeline.arrRef spec0 3))) (h : Fin 512) :
    ((cfg0.win 3).blk t).view.read (Elt Ideal) A (ix2 (0 : Fin 1) h) = A (ix2 (0 : Fin 1) h) := by
  show A (((cfg0.win 3).blk t).view.emb (ix2 (0 : Fin 1) h)) = _
  refine congrArg A (funext fun a => Fin.ext ?_)
  match a with
  | ⟨0, _⟩ => show win0_3.index t (0 : Fin 2) * 1 + 1 * 0 = 0; omega
  | ⟨1, _⟩ => show win0_3.index t (1 : Fin 2) * 512 + 1 * h.val = h.val; omega

/-- The fifth window's block is its whole row. -/
theorem read_w2 (e0 : win0_4.index t (0 : Fin 2) = 0) (e1 : win0_4.index t (1 : Fin 2) = 0)
    (A : Buf (Elt Ideal) ((c : Thread nD τ).loc (Pipeline.arrRef spec0 4))) (h : Fin 512) :
    ((cfg0.win 4).blk t).view.read (Elt Ideal) A (ix2 (0 : Fin 1) h) = A (ix2 (0 : Fin 1) h) := by
  show A (((cfg0.win 4).blk t).view.emb (ix2 (0 : Fin 1) h)) = _
  refine congrArg A (funext fun a => Fin.ext ?_)
  match a with
  | ⟨0, _⟩ => show win0_4.index t (0 : Fin 2) * 1 + 1 * 0 = 0; omega
  | ⟨1, _⟩ => show win0_4.index t (1 : Fin 2) * 512 + 1 * h.val = h.val; omega

/-- The sixth window's block is its one cell. -/
theorem read_b2 (e0 : win0_5.index t (0 : Fin 2) = 0) (e1 : win0_5.index t (1 : Fin 2) = 0)
    (A : Buf (Elt Ideal) ((c : Thread nD τ).loc (Pipeline.arrRef spec0 5))) :
    ((cfg0.win 5).blk t).view.read (Elt Ideal) A (ix2 (0 : Fin 1) (0 : Fin 1)) = A (ix2 (0 : Fin 1) (0 : Fin 1)) := by
  show A (((cfg0.win 5).blk t).view.emb (ix2 (0 : Fin 1) (0 : Fin 1))) = _
  refine congrArg A (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

/-- Entry `(p, q)` of the output window's block sits at `(bi · 32 + p, bj · 128 + q)` of the result. -/
theorem out_position (bi bj : Fin 8) (e0 : win0_6.index t (0 : Fin 2) = bi.val) (e1 : win0_6.index t (1 : Fin 2) = bj.val)
    (p : Fin 32) (q : Fin 128) :
    ((cfg0.win 6).blk t).view.emb (ix2 p q) = ix2 (queryRow bi p) (supportRow bj q) := by
  refine funext fun a => Fin.ext ?_
  match a with
  | ⟨0, _⟩ => show win0_6.index t (0 : Fin 2) * 32 + 1 * p.val = bi.val * 32 + p.val; omega
  | ⟨1, _⟩ => show win0_6.index t (1 : Fin 2) * 128 + 1 * q.val = bj.val * 128 + q.val; omega

end Reads

/-! ## What a point writes back -/

/-- WHAT POINT `t` WRITES BACK is block `t` of the pair score of the launch arguments. -/
theorem flushed_eq (c : Dev nD) (t : Fin cfg0.N) :
    (dats m 0 c).flushed 6 t = ((cfg0.win 6).blk t).view.read (Elt Ideal) (scoreOf m c) := by
  obtain ⟨e00, e01, e10, e11, e20, e21, e30, e31, e40, e41, e50, e51, hb0, hb1⟩ := index_maps t
  rw [Value.flushed6]
  unfold out0_6
  rw [View.canon_unit_zero zero_offsets]
  simp only [View.ld_unit_zero (S := S32x512) zero_offsets, View.ld_unit_zero (S := S128x512) zero_offsets,
    View.ld_unit_zero (S := S512x512) zero_offsets, View.ld_unit_zero (S := S1x512) zero_offsets,
    View.ld_unit_zero (S := S1x1) zero_offsets]
  refine funext fun (j : S32x128.Idx) => ?_
  obtain ⟨p, q, rfl⟩ : ∃ (p : Fin 32) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = scoreOf m c (((cfg0.win 6).blk t).view.emb (ix2 p q))
  rw [out_position t ⟨win0_6.index t (0 : Fin 2), hb0⟩ ⟨win0_6.index t (1 : Fin 2), hb1⟩ rfl rfl p q]
  refine stored_is_score _ _ _ _ _ _ (iblk m c 0 t) (iblk m c 1 t) (iblk m c 2 t) (iblk m c 3 t) (iblk m c 4 t) (iblk m c 5 t)
    ⟨win0_6.index t (0 : Fin 2), hb0⟩ ⟨win0_6.index t (1 : Fin 2), hb1⟩ ?_ ?_ ?_ ?_ ?_ ?_ p q
  · intro p d
    exact (read_query c t _ e00 e01 (V m c (Pipeline.arrRef spec0 0)) p d).trans (congrFun (V_main_arg0 m c) _)
  · intro q d
    exact (read_support c t _ e10 e11 (V m c (Pipeline.arrRef spec0 1)) q d).trans (congrFun (V_main_arg1 m c) _)
  · intro d h
    exact (read_w1 c t e20 e21 (V m c (Pipeline.arrRef spec0 2)) d h).trans (congrFun (Entry.narrowed_w1 m c) _)
  · intro h
    refine (read_b1 c t e30 e31 (V m c (Pipeline.arrRef spec0 3)) h).trans ((congrFun (Entry.row_b1 m c) _).trans ?_)
    exact shapeCast_a_1a_apply _ _ 0 h
  · intro h
    refine (read_w2 c t e40 e41 (V m c (Pipeline.arrRef spec0 4)) h).trans ((congrFun (Entry.row_w2 m c) _).trans ?_)
    exact Entry.column_as_row _ _ h
  · refine (read_b2 c t e50 e51 (V m c (Pipeline.arrRef spec0 5))).trans ((congrFun (Entry.cell_b2 m c) _).trans ?_)
    exact Entry.unit_as_cell _ _

/-! ## The blocks tile the result -/

/-- An index of the result is in point `t`'s block iff each coordinate is in the block's range on its axis. -/
theorem mem_block (t : Fin cfg0.N) (i : S256x1024.Idx) :
    i ∈ ((cfg0.win 6).blk t).view.set ↔ ∀ a : Fin 2, win0_6.index t a * S32x128.size a ≤ (i a).val ∧ (i a).val < win0_6.index t a * S32x128.size a + S32x128.size a := by
  show i ∈ ((View.whole main_v4).slice (win0_6.rect t)).set ↔ _
  rw [View.set_slice_whole, Rect.mem_set_unit]
  exact Iff.rfl

/-- Every index of the result is in the block of the point at `(i 0 / 32, i 1 / 128)`. -/
theorem covered (i : S256x1024.Idx) : ∃ t : Fin cfg0.N, (cfg0.win 6).flush t = true ∧ i ∈ ((cfg0.win 6).blk t).view.set := by
  have hi0 : (i 0).val < 256 := (i 0).isLt
  have hi1 : (i 1).val < 1024 := (i 1).isLt
  obtain ⟨t, ht⟩ := every_block ⟨(i 0).val / 32, by omega⟩ ⟨(i 1).val / 128, by omega⟩
  have q0 : win0_6.index t (0 : Fin 2) = (i 0).val / 32 := congrFun ht 0
  have q1 : win0_6.index t (1 : Fin 2) = (i 1).val / 128 := congrFun ht 1
  refine ⟨t, flush0_6 t, ?_⟩
  rw [mem_block]
  intro a
  match a with
  | ⟨0, _⟩ => show win0_6.index t (0 : Fin 2) * 32 ≤ (i 0).val ∧ (i 0).val < win0_6.index t (0 : Fin 2) * 32 + 32; omega
  | ⟨1, _⟩ => show win0_6.index t (1 : Fin 2) * 128 ≤ (i 1).val ∧ (i 1).val < win0_6.index t (1 : Fin 2) * 128 + 128; omega

/-- THE RESULT ARRAY after the run is the pair score of the launch arguments. -/
theorem final (c : Dev nD) : (dats m 0 c).arrAt 6 cfg0.N = scoreOf m c :=
  (dats m 0 c).arrAt_eq_of_cover 6 (scoreOf m c) (fun t _ => flushed_eq m c t) covered

/-! ## The run, read -/

/-- The kernel's run: it terminates with the result at the pair score and the arguments unchanged. -/
theorem run : θ_run defs (onTc (τ := τ) (main (F := Ideal))) ⟨m, fun _ => 0, ρ⟩ fun r => ∀ c : Dev nD,
      r.2.mem ((c : Thread nD τ).loc main_v4) = scoreOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.PairScore.Blocks

end
-- ==== Proof.RefIsSpec.lean ====
/-
  The reference computes the pair score.

  Its program builds the rank-3 array of coordinatewise distances `|a n d − s m d|`, contracts it with `W₁` over `d`,
  adds `b₁`, rectifies, contracts with the one column of `W₂` over the hidden axis, drops the unit axis, adds `b₂`
  and applies `1 / (1 + e^(−x))`. Read one operation at a time at an index, each step lands on the matching
  factor of `PairScore.score`; the only work is to see that the composed index maps of the broadcasts and the
  reshape pick the coordinates `(n, d)`, `(m, d)`, `(d, h)`, `h` and `(h, 0)`.
-/
import proofs.«161711_j61718680043758_1_alg».proof.Proof.Gen.ReferenceIdeal.Read
import proofs.«161711_j61718680043758_1_alg».proof.Proof.Spec

noncomputable section

open scoped BigOperators

namespace Cert.PairScore.Reference

open Cert.ReferenceIdeal Cert.ReferenceIdeal.Read Idealize.ShloMosaic Idealize.ShloMosaic.ValueIdx

variable (n : Fin 256) (m : Fin 1024)

/-- Flattening `(n, m)` over 1024 columns and splitting again gives back `(n, m)` with a trailing zero. -/
theorem unflat : idx_main_v12 (ix2 n m) = ix3 n m (0 : Fin 1) := by
  funext a; apply Fin.ext
  have hn : n.val < 256 := n.isLt
  have hm : m.val < 1024 := m.isLt
  match a with
  | ⟨0, _⟩ => show (n.val * 1024 + m.val) / 1024 = n.val; omega
  | ⟨1, _⟩ => show (n.val * 1024 + m.val) / 1 % 1024 = m.val; omega
  | ⟨2, _⟩ => rfl

/-- The query operand of the distance at `(n, m, d)` is row `n`, coordinate `d`. -/
theorem query_idx (h d : Fin 512) :
    idx_main_v0 (idx_main_v2 (lidx_main_v6 (lidx_main_v11 (ix3 n m (0 : Fin 1)) h) d)) = ix2 n d := by
  funext a; apply Fin.ext
  match a with
  | ⟨0, _⟩ => rfl
  | ⟨1, _⟩ => rfl

/-- The support operand of the distance at `(n, m, d)` is row `m`, coordinate `d`. -/
theorem support_idx (h d : Fin 512) :
    idx_main_v1 (idx_main_v3 (lidx_main_v6 (lidx_main_v11 (ix3 n m (0 : Fin 1)) h) d)) = ix2 m d := by
  funext a; apply Fin.ext
  match a with
  | ⟨0, _⟩ => rfl
  | ⟨1, _⟩ => rfl

/-- The first contraction pairs coordinate `d` with `W₁ d h`. -/
theorem w1_idx (h d : Fin 512) : ridx_main_v6 (lidx_main_v11 (ix3 n m (0 : Fin 1)) h) d = ix2 d h := by
  funext a; apply Fin.ext
  match a with
  | ⟨0, _⟩ => rfl
  | ⟨1, _⟩ => rfl

/-- The hidden bias read at `(n, m, h)` is `b₁ h`. -/
theorem b1_idx (h : Fin 512) : idx_main_v7 (idx_main_v8 (lidx_main_v11 (ix3 n m (0 : Fin 1)) h)) = ix1 h := by
  funext a; apply Fin.ext
  match a with
  | ⟨0, _⟩ => rfl

/-- The second contraction pairs hidden unit `h` with `W₂ h 0`. -/
theorem w2_idx (h : Fin 512) : ridx_main_v11 (ix3 n m (0 : Fin 1)) h = ix2 h (0 : Fin 1) := by
  funext a; apply Fin.ext
  match a with
  | ⟨0, _⟩ => rfl
  | ⟨1, _⟩ => rfl

/-- The output bias, reshaped to a scalar and broadcast, is `b₂ 0` everywhere. -/
theorem b2_read (x5 : (⟨S1, .f32⟩ : BufTy).Contents (Elt Ideal)) (j : S_.Idx) :
    val_main_v13 (F := Ideal) x5 j = x5 (ix1 (0 : Fin 1)) := by
  unfold val_main_v13
  exact shapeCast_apply x5 _ j (ix1 (0 : Fin 1)) rfl

/-- THE REFERENCE'S RESULT is the pair score of its arguments. -/
theorem result_eq (x0 : (⟨S256x512, .f32⟩ : BufTy).Contents (Elt Ideal)) (x1 : (⟨S1024x512, .f32⟩ : BufTy).Contents (Elt Ideal))
    (x2 : (⟨S512x512, .f32⟩ : BufTy).Contents (Elt Ideal)) (x3 : (⟨S512, .f32⟩ : BufTy).Contents (Elt Ideal))
    (x4 : (⟨S512x1, .f32⟩ : BufTy).Contents (Elt Ideal)) (x5 : (⟨S1, .f32⟩ : BufTy).Contents (Elt Ideal)) :
    val_main_v21 (F := Ideal) x0 x1 x2 x3 x4 x5 = score x0 x1 x2 x3 x4 x5 := by
  funext i
  obtain ⟨n, m, rfl⟩ : ∃ (n : Fin 256) (m : Fin 1024), i = ix2 n m := ⟨i 0, i 1, eq_ix2 i⟩
  simp only [val_main_v21_apply, val_main_v20_apply, val_main_cst_0_apply, val_main_v19_apply, val_main_v18_apply,
    val_main_cst_apply, val_main_v17_apply, val_main_v16_apply, val_main_v15_apply, val_main_v14_apply, b2_read,
    val_main_v12_apply, unflat, val_main_v11_apply, val_main_v10_apply, val_main_call0_v0_apply,
    val_main_call0_cst_apply, val_main_v9_apply, val_main_v8_apply, val_main_v7_apply, val_main_v6_apply,
    val_main_v5_apply, val_main_v4_apply, val_main_v3_apply, val_main_v2_apply, val_main_v1_apply, val_main_v0_apply,
    query_idx, support_idx, w1_idx, b1_idx, w2_idx]
  simp only [Ideal.hostDivf_def, Ideal.addf_def, Ideal.hostUnary_exp_def, Ideal.hostNegf_def, Ideal.negf_def,
    Ideal.maximumf_def, Ideal.hostAbsf_def, Ideal.absf_def, Ideal.subf_def, Ideal.ofBits_def, Ideal.ofBits_zero_f32,
    logistic_eq_quotient]
  rfl

end Cert.PairScore.Reference

end
-- ==== Proof.lean ====
/-
  A siamese similarity head over all pairs of 256 query rows and 1024 support rows.

  For query row `n` and support row `m` both programs compute
      σ( ∑ h, max (∑ d, |a n d − s m d| · W₁ d h + b₁ h) 0 · W₂ h 0 + b₂ 0 ),
  with σ the logistic function. The kernel does it block by block — 32 query rows against 128 support rows per grid
  point, the 4096 pairs of a block flattened into the rows of one matrix product with `W₁` (narrowed to bf16, which
  is the identity on the extended reals), the projection onto `W₂` as a lane sum, the logistic function as one
  operation. The reference builds the whole `[256, 1024, 512]` distance array, contracts it twice and spells the
  logistic function as `1 / (1 + e^(−x))`. On the extended reals these are the same sums in the same order and the
  same function σ, so no law beyond re-indexing is needed and the finiteness of the inputs is never used.

  The pieces: `Spec` states the score; `RefIsSpec` reads the reference's run at an index; `Layout`, `Body` and
  `Point` read one stored entry of a grid point's block; `Entry` reads the arrays the host re-laid before the launch;
  `Blocks` tiles the result with the 64 written blocks. The three frames are the programs' runs with the result
  forgotten, and the kernel's idealization rewrote nothing.
-/
import proofs.«161711_j61718680043758_1_alg».proof.Defs
import proofs.«161711_j61718680043758_1_alg».proof.Proof.Gen.Kernel
import proofs.«161711_j61718680043758_1_alg».proof.Proof.Gen.Kernel.Skeleton
import proofs.«161711_j61718680043758_1_alg».proof.Proof.Gen.Kernel.Launch
import proofs.«161711_j61718680043758_1_alg».proof.Proof.Gen.Kernel.Points
import proofs.«161711_j61718680043758_1_alg».proof.Proof.Gen.Kernel.Frame
import proofs.«161711_j61718680043758_1_alg».proof.Proof.Gen.KernelIdeal
import proofs.«161711_j61718680043758_1_alg».proof.Proof.Gen.KernelIdeal.Skeleton
import proofs.«161711_j61718680043758_1_alg».proof.Proof.Gen.KernelIdeal.Launch
import proofs.«161711_j61718680043758_1_alg».proof.Proof.Gen.KernelIdeal.Points
import proofs.«161711_j61718680043758_1_alg».proof.Proof.Gen.KernelIdeal.Frame
import proofs.«161711_j61718680043758_1_alg».proof.Proof.Gen.ReferenceIdeal
import proofs.«161711_j61718680043758_1_alg».proof.Proof.Gen.KernelIdeal.Value
import proofs.«161711_j61718680043758_1_alg».proof.Proof.Gen.ReferenceIdeal.Run
import proofs.«161711_j61718680043758_1_alg».proof.Proof.Gen.ReferenceIdeal.Read
import proofs.«161711_j61718680043758_1_alg».proof.Proof.Gen.Pre_finite_inputs
import proofs.«161711_j61718680043758_1_alg».proof.Proof.Blocks
import proofs.«161711_j61718680043758_1_alg».proof.Proof.RefIsSpec
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the pair score of the (agreeing) arguments in their result arrays. -/
theorem algebraic : Cert.algebraic_KernelIdeal_ReferenceIdeal := by
  intro m ρ m' ρ' _ hagree
  refine ⟨fun c => Cert.PairScore.Blocks.scoreOf m c, Cert.PairScore.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.PairScore.Reference.result_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
